-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x1024 .f32) (main_arg1 : FVec F S4096x1024 .f32) (main_arg2 : FVec F S4096x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x1024 : Shape := ⟨2, ![4096, 1024]⟩
abbrev S4096x4096 : Shape := ⟨2, ![4096, 4096]⟩
abbrev S4096x2048 : Shape := ⟨2, ![4096, 2048]⟩
abbrev S512x512 : Shape := ⟨2, ![512, 512]⟩
abbrev S512x2048 : Shape := ⟨2, ![512, 2048]⟩
abbrev S1x4096x1024 : Shape := ⟨3, ![1, 4096, 1024]⟩
abbrev S2x4096x1024 : Shape := ⟨3, ![2, 4096, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1x4096x1024, .f32⟩
  | .hbm, ⟨8, _⟩ => ⟨S1x4096x1024, .f32⟩
  | .hbm, ⟨9, _⟩ => ⟨S2x4096x1024, .f32⟩
  | .local _ .vmem, ⟨0, _⟩ => ⟨S512x512, .f32⟩
  | .local _ .vmem, ⟨1, _⟩ => ⟨S512x512, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S4096x1024_S4096x1024_S4096x2048_d1 : Shape.Concatenates [S4096x1024, S4096x1024] S4096x2048 1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  slices_S4096x2048_S4096x1024_0_0 : S4096x2048.Slices ![0, 0] S4096x1024
  slices_S4096x2048_S4096x1024_0_1024 : S4096x2048.Slices ![0, 1024] S4096x1024
  bcast_S4096x1024_S1x4096x1024_1_2 : S4096x1024.BroadcastsInDim S1x4096x1024 (![1, 2] : Fin 2 → Fin S1x4096x1024.rank)
  concatenates_S1x4096x1024_S1x4096x1024_S2x4096x1024_d0 : Shape.Concatenates [S1x4096x1024, S1x4096x1024] S2x4096x1024 0
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x2048.size a
  hwx0_2 : ∀ i : grid0.Coords, EltTy.bits .f32 = 32 ∨ (Rect.block (s := S4096x2048) S512x2048.size (cc0_transform_2 i) (hinb0_2 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg2) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x4096 : Shape := ⟨2, ![4096, 4096]⟩
abbrev S1x4096x1024 : Shape := ⟨3, ![1, 4096, 1024]⟩
abbrev S2x4096x1024 : Shape := ⟨3, ![2, 4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x1024, .f32⟩
  | .hbm, ⟨4, _⟩ => ⟨S4096x1024, .f32⟩
  | .hbm, ⟨5, _⟩ => ⟨S1x4096x1024, .f32⟩
  | .hbm, ⟨6, _⟩ => ⟨S1x4096x1024, .f32⟩
  | .hbm, ⟨7, _⟩ => ⟨S2x4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096x1024_S1x4096x1024_1_2 : S4096x1024.BroadcastsInDim S1x4096x1024 (![1, 2] : Fin 2 → Fin S1x4096x1024.rank)
  concatenates_S1x4096x1024_S1x4096x1024_S2x4096x1024_d0 : Shape.Concatenates [S1x4096x1024, S1x4096x1024] S2x4096x1024 0
  dot_S4096x4096_S4096x1024_S4096x1024_1_0_0_1_n_n_wf : DotDims.WF S4096x4096 S4096x1024 S4096x1024 [1] [0] [0] [1] [] []

variable [Facts₀]

def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Body.lean ====
/-
  What the kernel body leaves behind at each grid point, as values.

  The grid has 8 x 8 points, (i, k) at position 8 i + k. At every point the body adds to a [512, 2048] scratch
  accumulator the product of the point's [512, 512] block of the matrix with its [512, 2048] block of the right-hand
  array (the product taken into a zero accumulator, then added); at k = 0 it first stores zeros into the scratch, and
  at k = 7 it copies the scratch into the output block, the only points whose block is written back. So the scratch
  after a point with k = 0 is "zero plus that point's product", after any other point it is "what the point before left,
  plus this point's product", and the output block of a point with k = 7 is the scratch after that point.
  Everything here holds for any interpretation of the float operations; the sums are read in the next module.
-/
import proofs.«101000_j73813307949722_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

variable (m : (ℓ : Loc nD τ sig) → Buf (Elt F) ℓ)

theorem hz : (![0, 0] : Fin 2 → Nat) = fun _ => 0 := funext fun a => by fin_cases a <;> rfl

/-! ## What each case of the body leaves -/

/-- At a point with k = 0 the scratch ends at the step applied to the zero block: the zeros just stored are what the
    step's load of the scratch reads back. -/
theorem scratch_first (c : Dev nD) (i : grid0.Coords) (a2 : Memref sig .tc .vmem S512x512 .f32) (h2 : a2.IsWhole)
    (a3 : Memref sig .tc .vmem S512x2048 .f32) (h3 : a3.IsWhole) (a4 : Memref sig .tc .vmem S512x2048 .f32) (h4 : a4.IsWhole)
    (a5 : Memref sig .tc .vmem S512x2048 .f32) (h5 : a5.IsWhole) (hc0 : cond0_0 i) (hc1 : ¬cond0_1 i)
    (x0 : Vec F S512x512 .f32) (x1 : Vec F S512x2048 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x2048) hz, View.readCov_unit_zero (S := S512x2048) _ hz]
  simp only [View.readAt_eq_ld, h2.read_unread, h3.read_unread, View.ld_unit_zero (S := S512x512) hz,
    View.ld_unit_zero (S := S512x2048) hz]

/-- At a point with 0 < k < 7 the scratch, found at `xs`, ends at the step applied to `xs`. -/
theorem scratch_middle (c : Dev nD) (i : grid0.Coords) (a2 : Memref sig .tc .vmem S512x512 .f32) (h2 : a2.IsWhole)
    (a3 : Memref sig .tc .vmem S512x2048 .f32) (h3 : a3.IsWhole) (a4 : Memref sig .tc .vmem S512x2048 .f32) (h4 : a4.IsWhole)
    (a5 : Memref sig .tc .vmem S512x2048 .f32) (h5 : a5.IsWhole) (hc0 : ¬cond0_0 i) (hc1 : ¬cond0_1 i)
    (x0 : Vec F S512x512 .f32) (x1 : Vec F S512x2048 .f32) (xs : Vec F S512x2048 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S512x512) hz,
    View.ld_unit_zero (S := S512x2048) hz]

/-- At a point with k = 7 the scratch ends the same way, -/
theorem scratch_last (c : Dev nD) (i : grid0.Coords) (a2 : Memref sig .tc .vmem S512x512 .f32) (h2 : a2.IsWhole)
    (a3 : Memref sig .tc .vmem S512x2048 .f32) (h3 : a3.IsWhole) (a4 : Memref sig .tc .vmem S512x2048 .f32) (h4 : a4.IsWhole)
    (a5 : Memref sig .tc .vmem S512x2048 .f32) (h5 : a5.IsWhole) (hc0 : ¬cond0_0 i) (hc1 : cond0_1 i)
    (x0 : Vec F S512x512 .f32) (x1 : Vec F S512x2048 .f32) (xs : Vec F S512x2048 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S512x512) hz,
    View.ld_unit_zero (S := S512x2048) hz]

/-- and the output block is the scratch read back after the step. -/
theorem out_last (c : Dev nD) (i : grid0.Coords) (a2 : Memref sig .tc .vmem S512x512 .f32) (h2 : a2.IsWhole)
    (a3 : Memref sig .tc .vmem S512x2048 .f32) (h3 : a3.IsWhole) (a4 : Memref sig .tc .vmem S512x2048 .f32) (h4 : a4.IsWhole)
    (a5 : Memref sig .tc .vmem S512x2048 .f32) (h5 : a5.IsWhole) (hc0 : ¬cond0_0 i) (hc1 : cond0_1 i)
    (x0 : Vec F S512x512 .f32) (x1 : Vec F S512x2048 .f32) (xs : Vec F S512x2048 .f32) :
    out0_C_2 c i a2 h2 a3 h3 a4 h4 a5 h5 hc0 hc1 x0 x1 xs = k0_pay2 x0 x1 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz, View.readCov_unit_zero (S := S512x2048) _ hz]
  simp only [View.readAt_eq_ld, h2.read_unread, h3.read_unread, h5.read_unread, View.ld_unit_zero (S := S512x512) hz,
    View.ld_unit_zero (S := S512x2048) hz]

/-! ## The running accumulator -/

/-- The matrix's block at point `t`. -/
def ublk (c : Dev nD) (t : Fin cfg0.N) : Vec F S512x512 .f32 := iblk m c 0 t
/-- The right-hand array's block at point `t`. -/
def xblk (c : Dev nD) (t : Fin cfg0.N) : Vec F S512x2048 .f32 := iblk m c 1 t

/-- The scratch after the point at position `n`: restarted from zeros where k = 0, otherwise continued. -/
def acc (c : Dev nD) : (n : ℕ) → n < cfg0.N → Vec F S512x2048 .f32
  | 0, h => k0_pay2 (ublk m c ⟨0, h⟩) (xblk m c ⟨0, h⟩) (k0_pay1 (F := F))
  | n + 1, h =>
    if (n + 1) % 8 = 0 then k0_pay2 (ublk m c ⟨n + 1, h⟩) (xblk m c ⟨n + 1, h⟩) (k0_pay1 (F := F))
    else k0_pay2 (ublk m c ⟨n + 1, h⟩) (xblk m c ⟨n + 1, h⟩) (acc c n (Nat.lt_of_succ_lt h))

theorem acc_restart (c : Dev nD) (n : ℕ) (h : n < cfg0.N) (h0 : n % 8 = 0) :
    acc m c n h = k0_pay2 (ublk m c ⟨n, h⟩) (xblk m c ⟨n, h⟩) (k0_pay1 (F := F)) := by
  cases n with
  | zero => rfl
  | succ n => show (if (n + 1) % 8 = 0 then _ else _) = _; rw [if_pos h0]

theorem acc_continue (c : Dev nD) (n : ℕ) (h : n + 1 < cfg0.N) (h0 : ¬(n + 1) % 8 = 0) :
    acc m c (n + 1) h = k0_pay2 (ublk m c ⟨n + 1, h⟩) (xblk m c ⟨n + 1, h⟩) (acc m c n (Nat.lt_of_succ_lt h)) := by
  show (if (n + 1) % 8 = 0 then _ else _) = _; rw [if_neg h0]

/-- The scratch after a point with k = 0: the step applied to the zero block. -/
theorem found_first (c : Dev nD) (t : Fin cfg0.N) (h0 : t.val % 8 = 0) :
    (outsAt0 m c t.val t.isLt).2 = k0_pay2 (ublk m c t) (xblk m c t) (k0_pay1 (F := F)) := by
  have h1 : ¬t.val % 8 = 7 := by omega
  rw [outsAt0_A m c t h0 h1]
  dsimp only
  exact scratch_first (F := F) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- The scratch after a point with k > 0: the step applied to what the point before left. -/
theorem found_next (c : Dev nD) (t : Fin cfg0.N) (h0 : ¬t.val % 8 = 0) :
    (outsAt0 m c t.val t.isLt).2 = k0_pay2 (ublk m c t) (xblk m c t) (outsAt0 m c (t.val - 1) (Nat.lt_of_le_of_lt (Nat.sub_le _ _) t.isLt)).2 := by
  by_cases h1 : t.val % 8 = 7
  · rw [outsAt0_C m c t h0 h1]
    dsimp only
    exact scratch_last (F := F) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t) (outsAt0 m c (t.val - 1) (Nat.lt_of_le_of_lt (Nat.sub_le _ _) t.isLt)).2
  · rw [outsAt0_B m c t h0 h1]
    dsimp only
    exact scratch_middle (F := F) c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- The output block after a point with k = 7: the same value as the scratch. -/
theorem found_out (c : Dev nD) (t : Fin cfg0.N) (h7 : t.val % 8 = 7) :
    (outsAt0 m c t.val t.isLt).1 = k0_pay2 (ublk m c t) (xblk m c t) (outsAt0 m c (t.val - 1) (Nat.lt_of_le_of_lt (Nat.sub_le _ _) t.isLt)).2 := by
  have h0 : ¬t.val % 8 = 0 := by omega
  rw [outsAt0_C m c t h0 h7]
  dsimp only
  exact out_last (F := F) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h7) (iblk m c 0 t) (iblk m c 1 t) (outsAt0 m c (t.val - 1) (Nat.lt_of_le_of_lt (Nat.sub_le _ _) t.isLt)).2

/-- The scratch after each point is the running accumulator — by induction on the position. -/
theorem scratch_eq (c : Dev nD) : ∀ (n : ℕ) (h : n < cfg0.N), (outsAt0 m c n h).2 = acc m c n h
  | 0, h => (found_first m c ⟨0, h⟩ (Nat.zero_mod _)).trans (acc_restart m c 0 h (Nat.zero_mod _)).symm
  | n + 1, h => by
    by_cases h0 : (n + 1) % 8 = 0
    · exact (found_first m c ⟨n + 1, h⟩ h0).trans (acc_restart m c (n + 1) h h0).symm
    · rw [acc_continue m c n h h0, ← scratch_eq c n (Nat.lt_of_succ_lt h)]
      exact found_next m c ⟨n + 1, h⟩ h0

/-- At a point with k = 7 the output block holds the running accumulator too. -/
theorem out_eq (c : Dev nD) (t : Fin cfg0.N) (h7 : t.val % 8 = 7) : (outsAt0 m c t.val t.isLt).1 = acc m c t.val t.isLt := by
  have h0 : ¬t.val % 8 = 0 := by omega
  exact (found_out m c t h7).trans ((found_next m c t h0).symm.trans (scratch_eq m c t.val t.isLt))

end Cert.KernelIdeal.Body

end
-- ==== Proof.LibPlainDot.lean ====
/-
  A matrix product with the plain dimension numbers — an [M, K] operand against a [K, N] operand, contracting the
  left operand's second axis with the right operand's first, no batch axis — read at one entry of the result.
  Over the extended reals both the matrix unit's product into a zero accumulator and the host's `dot_general` are,
  at row `p` and column `q`, the sum over `k : Fin K` of `lhs (p, k) * rhs (k, q)`: the contraction index, a
  one-coordinate index of the contracted shape, is re-indexed by its coordinate. Generic in `M`, `K`, `N`.
-/
import Idealize.ShloMosaic.PureOps.Ideal.Laws
import Idealize.ShloMosaic.Lib.ValueIdx

noncomputable section

namespace LibPlainDot

open Idealize.ShloMosaic Idealize.ShloMosaic.ValueIdx

variable {M K N : Nat}

/-- The contraction index whose one coordinate is `k`. -/
abbrev kIdx (k : Fin K) : (DotDims.plain M K N).contr.Idx :=
  (contrEquiv1 (DotDims.plain M K N) K rfl rfl).symm k

/-- The left operand is read at row `p`, column `k`. -/
theorem lhsIdx_plain (p : Fin M) (q : Fin N) (k : Fin K) :
    (DotDims.plain M K N).lhsIdx (ix2 p q) (kIdx k) = ix2 p k := by
  funext a
  apply Fin.ext
  match a with
  | ⟨0, _⟩ => rfl
  | ⟨1, _⟩ =>
    exact ((DotDims.plain M K N).lhsIdx_val_of_single (cl := (1 : Fin 2)) rfl (ix2 p q) (kIdx k)).trans
      (contrEquiv1_symm_val (DotDims.plain M K N) K rfl rfl k)

/-- The right operand is read at row `k`, column `q`. -/
theorem rhsIdx_plain (p : Fin M) (q : Fin N) (k : Fin K) :
    (DotDims.plain M K N).rhsIdx (ix2 p q) (kIdx k) = ix2 k q := by
  funext a
  apply Fin.ext
  match a with
  | ⟨0, _⟩ =>
    exact ((DotDims.plain M K N).rhsIdx_val_of_single (cr := (0 : Fin 2)) rfl (ix2 p q) (kIdx k)).trans
      (contrEquiv1_symm_val (DotDims.plain M K N) K rfl rfl k)
  | ⟨1, _⟩ => rfl

/-- The sum over the contracted shape is the sum over `k : Fin K` of the row entry times the column entry. -/
theorem sum_plain (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_plain p q k, rhsIdx_plain p q k]

/-- The matrix unit's product into the zero accumulator, at row `p` and column `q`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain lhs rhs p q)

/-- The host's `dot_general`, at row `p` and column `q`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain lhs rhs p q)

end LibPlainDot

end
-- ==== Proof.StepIdeal.lean ====
/-
  The body's two values read at one entry, over the extended reals (where a change of float format is the identity).
  The zero block is 0 everywhere. The step — "the accumulator plus the product of the two blocks taken into a zero
  accumulator" — at row p and column q is the accumulator's entry plus the sum over the 512 positions k' of the block
  of (matrix block at (p, k')) * (right-hand block at (k', q)).
-/
import proofs.«101000_j73813307949722_1_alg».proof.Proof.Gen.KernelIdeal.Skeleton
import proofs.«101000_j73813307949722_1_alg».proof.Proof.LibPlainDot
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.StepIdeal

open Cert.KernelIdeal Cert.KernelIdeal.Gen

/-- The block of zeros the body stores at k = 0 is 0 at every entry. -/
theorem zero_block_apply (j : S512x2048.Idx) : (k0_pay1 (F := Ideal)) j = 0 := by
  unfold k0_pay1
  rw [shapeCast_self]
  show Ideal.ofBits .f32 0x00000000#32 = 0
  exact Ideal.ofBits_zero_f32

/-- The step at row `p`, column `q`: the accumulator's entry plus the block product's entry, a sum over the block's
    512 contraction positions. -/
theorem step_apply (x0 : Vec Ideal S512x512 .f32) (x1 xs : Vec Ideal S512x2048 .f32) (p : Fin 512) (q : Fin 2048) :
    k0_pay2 x0 x1 xs (ix2 p q) = xs (ix2 p q) + ∑ k' : Fin 512, x0 (ix2 p k') * x1 (ix2 k' q) := by
  unfold k0_pay2
  simp only [shapeCast_self]
  refine (addf_apply _ _ _).trans ?_
  refine congrArg (xs (ix2 p q) + ·) ?_
  exact LibPlainDot.matmul_zero_apply (M := 512) (K := 512) (N := 2048) none _ _ p q

end Cert.KernelIdeal.StepIdeal
end
-- ==== Proof.AccSum.lean ====
/-
  The running accumulator as a sum, over the extended reals.

  Write a position as n = 8 i + k. The scratch after position n holds, at row p and column q, the sum over the points
  8 i, 8 i + 1, …, 8 i + k of that point's block product at (p, q): at k = 0 it is "zero plus the first product", and
  each later point adds its own. The leading zero disappears because 0 + x = x on the extended reals; nothing else
  about the entries is used.
-/
import proofs.«101000_j73813307949722_1_alg».proof.Proof.Body
import proofs.«101000_j73813307949722_1_alg».proof.Proof.StepIdeal
set_option maxRecDepth 16384

noncomputable section

open Idealize.ShloMosaic Idealize.ShloMosaic.TcCoe Idealize.SL.Sem Idealize.ShloMosaic.ValueIdx
open Idealize.ShloMosaic.Pipeline (Dat)

namespace Cert.KernelIdeal.AccSum

open Cert.KernelIdeal Cert.KernelIdeal.Gen Cert.KernelIdeal.Body Cert.KernelIdeal.StepIdeal

variable (m : (ℓ : Loc nD τ sig) → Buf (Elt Ideal) ℓ)

/-- The block product of the point at position `s`, at row `p` and column `q` (zero past the grid, where it is
    never read). -/
def term (c : Dev nD) (s : ℕ) (p : Fin 512) (q : Fin 2048) : EReal :=
  if hs : s < cfg0.N then ∑ k' : Fin 512, ublk m c ⟨s, hs⟩ (ix2 p k') * xblk m c ⟨s, hs⟩ (ix2 k' q) else 0

theorem term_of_lt (c : Dev nD) (s : ℕ) (hs : s < cfg0.N) (p : Fin 512) (q : Fin 2048) :
    term m c s p q = ∑ k' : Fin 512, ublk m c ⟨s, hs⟩ (ix2 p k') * xblk m c ⟨s, hs⟩ (ix2 k' q) := by
  unfold term; rw [dif_pos hs]

/-- After position `n` the scratch holds the sum of the block products of the points of `n`'s row block up to `n`. -/
theorem acc_apply (c : Dev nD) : ∀ (n : ℕ) (h : n < cfg0.N) (p : Fin 512) (q : Fin 2048),
    acc m c n h (ix2 p q) = ∑ s ∈ Finset.range (n % 8 + 1), term m c (n - n % 8 + s) p q
  | 0, h, p, q => by
    rw [acc_restart m c 0 h (Nat.zero_mod _), step_apply, zero_block_apply, zero_add]
    show _ = ∑ s ∈ Finset.range 1, term m c (0 + s) p q
    rw [Finset.sum_range_one, term_of_lt m c (0 + 0) h]
  | n + 1, h, p, q => by
    by_cases h0 : (n + 1) % 8 = 0
    · rw [acc_restart m c (n + 1) h h0, step_apply, zero_block_apply, zero_add, h0]
      show _ = ∑ s ∈ Finset.range 1, term m c (n + 1 + s) p q
      rw [Finset.sum_range_one]
      exact (term_of_lt m c (n + 1) h p q).symm
    · have e1 : (n + 1) % 8 = n % 8 + 1 := by omega
      have e2 : n + 1 - (n % 8 + 1) = n - n % 8 := by omega
      have e3 : n - n % 8 + (n % 8 + 1) = n + 1 := by omega
      rw [acc_continue m c n h h0, step_apply, acc_apply c n (Nat.lt_of_succ_lt h) p q, e1, e2]
      conv_rhs => rw [Finset.sum_range_succ, e3, term_of_lt m c (n + 1) h]

end Cert.KernelIdeal.AccSum
end
-- ==== Proof.Blocks.lean ====
/-
  The windows' blocks as entries of the arrays the region finds.

  At the point at position t = 8 i + k the matrix window shows rows 512 i … 512 i + 511 and columns 512 k … 512 k + 511
  of the [4096, 4096] matrix, the right-hand window shows rows 512 k … 512 k + 511 (all 2048 columns) of the
  [4096, 2048] array, and the output window shows rows 512 i … 512 i + 511 (all columns) of the [4096, 2048] result.
  The index maps are decided once over the 64 grid points; a block's coordinate on an axis is always
  (block index) * (block extent) + (coordinate inside the block).
-/
import proofs.«101000_j73813307949722_1_alg».proof.Proof.Body
import Idealize.ShloMosaic.Lib.ValueIdx
set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Body

variable {F : FTy → Type} [FloatOps F]
variable (m : (ℓ : Loc nD τ sig) → Buf (Elt F) ℓ)

/-- The three index maps at every grid point: position t is row block t / 8, contraction block t % 8. -/
theorem idx_facts : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- An entry of the matrix block at point `t` is the matrix's entry at row (t / 8) * 512 + p, column (t % 8) * 512 + k'. -/
theorem ublk_apply (c : Dev nD) (t : Fin cfg0.N) (p k' : Fin 512) (r k : Fin 4096)
    (hr : r.val = t.val / 8 * 512 + p.val) (hk : k.val = t.val % 8 * 512 + k'.val) :
    ublk m c t (ix2 p k') = V m c main_arg2 (ix2 r k) := by
  obtain ⟨e0, e1, -⟩ := idx_facts t
  unfold ublk iblk
  rw [View.read_apply]
  show V m c main_arg2 (((cfg0.win 0).blk t).view.emb (ix2 p k')) = V m c main_arg2 (ix2 r k)
  refine congrArg (V m c main_arg2) (funext fun a => Fin.ext ?_)
  match a with
  | ⟨0, _⟩ => show win0_0.index t (0 : Fin 2) * 512 + 1 * p.val = r.val; rw [e0, hr]; omega
  | ⟨1, _⟩ => show win0_0.index t (1 : Fin 2) * 512 + 1 * k'.val = k.val; rw [e1, hk]; omega

/-- An entry of the right-hand block at point `t` is the array's entry at row (t % 8) * 512 + k', the same column. -/
theorem xblk_apply (c : Dev nD) (t : Fin cfg0.N) (k' : Fin 512) (q : Fin 2048) (k : Fin 4096)
    (hk : k.val = t.val % 8 * 512 + k'.val) :
    xblk m c t (ix2 k' q) = V m c main_v0 (ix2 k q) := by
  obtain ⟨-, -, e2, e3, -⟩ := idx_facts t
  unfold xblk iblk
  rw [View.read_apply]
  show V m c main_v0 (((cfg0.win 1).blk t).view.emb (ix2 k' q)) = V m c main_v0 (ix2 k q)
  refine congrArg (V m c main_v0) (funext fun a => Fin.ext ?_)
  match a with
  | ⟨0, _⟩ => show win0_1.index t (0 : Fin 2) * 512 + 1 * k'.val = k.val; rw [e2, hk]; omega
  | ⟨1, _⟩ => show win0_1.index t (1 : Fin 2) * 2048 + 1 * q.val = q.val; rw [e3]; omega

end Cert.KernelIdeal.Blocks
end
-- ==== Proof.LibBlockSum.lean ====
/- Block sums: a sum over Fin (n * b) is the sum over the n blocks of the b entries of each block,
   the entry j of block k sitting at position k * b + j. Over any commutative additive monoid. -/
import Mathlib.Algebra.BigOperators.Fin
import Mathlib.Data.Fintype.BigOperators
import Mathlib.Logic.Equiv.Fin.Basic

namespace BlockSum

variable {M : Type*} [AddCommMonoid M]

/-- Position k * b + j, with k < n and j < b, lies below n * b. -/
theorem block_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right _ k.isLt

/-- A sum over Fin (n * b) is the sum over the n blocks of the sums over the b entries of each block:
    ∑ k < n, ∑ j < b, f (k * b + j) = ∑ i < n * b, f i. -/
theorem sum_blocks (n b : ℕ) (f : Fin (n * b) → M) :
    (∑ k : Fin n, ∑ j : Fin b, f ⟨k.val * b + j.val, block_lt k j⟩) = ∑ i : Fin (n * b), f i := by
  rw [← Equiv.sum_comp finProdFinEquiv f, Fintype.sum_prod_type]
  refine Finset.sum_congr rfl fun k _ => Finset.sum_congr rfl fun j _ => ?_
  exact congrArg f (Fin.ext (by simp [finProdFinEquiv, Nat.mul_comm, Nat.add_comm]))

/-- 8 blocks of 1024 over Fin 8192. -/
theorem sum_blocks_8_1024 (f : Fin 8192 → M) :
    (∑ k : Fin 8, ∑ j : Fin 1024, f ⟨k.val * 1024 + j.val, by omega⟩) = ∑ i : Fin 8192, f i :=
  sum_blocks 8 1024 f

/-- 8 blocks of 2048 over Fin 16384. -/
theorem sum_blocks_8_2048 (f : Fin 16384 → M) :
    (∑ k : Fin 8, ∑ j : Fin 2048, f ⟨k.val * 2048 + j.val, by omega⟩) = ∑ i : Fin 16384, f i :=
  sum_blocks 8 2048 f

/-- 4 blocks of 2048 over Fin 8192. -/
theorem sum_blocks_4_2048 (f : Fin 8192 → M) :
    (∑ k : Fin 4, ∑ j : Fin 2048, f ⟨k.val * 2048 + j.val, by omega⟩) = ∑ i : Fin 8192, f i :=
  sum_blocks 4 2048 f

end BlockSum
-- ==== Proof.BlockAlg.lean ====
/-
  The contraction axis of the product has 4096 positions, and the kernel walks it in eight blocks of 512:
  position `kb * 512 + k'` is entry `k'` of block `kb`. Over any commutative additive monoid — the extended
  reals with their addition are one — the sum over the eight blocks of the sums inside each block is the sum over
  all 4096 positions: only commutativity and associativity of the addition are used, so no entry needs to be finite.
-/
import proofs.«101000_j73813307949722_1_alg».proof.Proof.LibBlockSum

namespace BlockAlg

variable {M : Type*} [AddCommMonoid M]

/-- Entry `p` of block `i` of an axis of 4096 positions cut into eight blocks of 512. -/
def pos (i : Fin 8) (p : Fin 512) : Fin 4096 := ⟨i.val * 512 + p.val, by have := i.isLt; have := p.isLt; omega⟩

@[simp] theorem pos_val (i : Fin 8) (p : Fin 512) : (pos i p).val = i.val * 512 + p.val := rfl

/-- The eight blocks' sums add up to the sum over all 4096 positions. -/
theorem sum_eight_blocks (f : Fin 4096 → M) :
    (∑ kb : Fin 8, ∑ k' : Fin 512, f (pos kb k')) = ∑ k : Fin 4096, f k :=
  BlockSum.sum_blocks 8 512 f

/-- The same with the blocks counted by a natural number below eight. -/
theorem sum_range_eight_blocks (f : Fin 4096 → M) (g : ℕ → M)
    (hg : ∀ kb : Fin 8, g kb.val = ∑ k' : Fin 512, f (pos kb k')) :
    (∑ s ∈ Finset.range 8, g s) = ∑ k : Fin 4096, f k := by
  rw [Finset.sum_range, ← sum_eight_blocks]
  exact Finset.sum_congr rfl fun kb _ => hg kb

end BlockAlg
-- ==== Proof.KernelValue.lean ====
/-
  The output array after the region, as one function of the arrays the region finds.

  Write U for the [4096, 4096] matrix and X for the [4096, 2048] right-hand array. The result array ends, at row r and
  column q, at the sum over all 4096 positions k of U (r, k) * X (k, q). Reason: the block written back at the point
  8 i + 7 is the scratch after that point, which at (p, q) is the sum over the eight points 8 i … 8 i + 7 of their block
  products; the product of point 8 i + s sums U (512 i + p, 512 s + k') * X (512 s + k', q) over k' < 512; and eight
  blocks of 512 positions are all 4096 positions. The eight written-back blocks (one per i) tile the array's rows.
-/
import proofs.«101000_j73813307949722_1_alg».proof.Proof.Body
import proofs.«101000_j73813307949722_1_alg».proof.Proof.AccSum
import proofs.«101000_j73813307949722_1_alg».proof.Proof.Blocks
import proofs.«101000_j73813307949722_1_alg».proof.Proof.BlockAlg
import Idealize.ShloMosaic.Lib.Pipeline.Value
set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Body Cert.KernelIdeal.AccSum Cert.KernelIdeal.Blocks

variable (m : (ℓ : Loc nD τ sig) → Buf (Elt Ideal) ℓ)

/-- The product of a [4096, 4096] array with a [4096, 2048] array over the extended reals: entry (r, q) is the sum over
    k of (r, k) times (k, q). -/
def prod (U : S4096x4096.Idx → Elt Ideal .f32) (X : S4096x2048.Idx → Elt Ideal .f32) : S4096x2048.Idx → Elt Ideal .f32 :=
  fun j => ∑ k : Fin 4096, U (ix2 (j 0) k) * X (ix2 k (j 1))

/-- The [4096, 4096] matrix as the region finds it. -/
abbrev Umat (c : Dev nD) : S4096x4096.Idx → Elt Ideal .f32 := V m c main_arg2
/-- The [4096, 2048] right-hand array as the region finds it. -/
abbrev Xmat (c : Dev nD) : S4096x2048.Idx → Elt Ideal .f32 := V m c main_v0

/-- The block written back at a point with k = 7, entry by entry, is the product's block of rows 512 i … 512 i + 511. -/
theorem block_value (c : Dev nD) (t : Fin cfg0.N) (h7 : t.val % 8 = 7) (y : S512x2048.Idx) (j : S4096x2048.Idx)
    (h0 : (j 0).val = t.val / 8 * 512 + (y 0).val) (h1 : (j 1).val = (y 1).val) :
    acc m c t.val t.isLt y = prod (Umat m c) (Xmat m c) j := by
  obtain ⟨p, q, rfl⟩ : ∃ (p : Fin 512) (q : Fin 2048), y = ix2 p q := ⟨y 0, y 1, eq_ix2 y⟩
  have hN : cfg0.N = 64 := N_0
  have ht := t.isLt
  have hq : j 1 = q := Fin.ext h1
  rw [acc_apply, h7]
  show ∑ s ∈ Finset.range 8, term m c (t.val - 7 + s) p q
    = ∑ k : Fin 4096, Umat m c (ix2 (j 0) k) * Xmat m c (ix2 k (j 1))
  rw [hq]
  refine BlockAlg.sum_range_eight_blocks (fun k => Umat m c (ix2 (j 0) k) * Xmat m c (ix2 k q)) _ (fun kb => ?_)
  have hkb := kb.isLt
  have hs : t.val - 7 + kb.val < cfg0.N := by omega
  rw [term_of_lt m c _ hs]
  refine Finset.sum_congr rfl fun k' _ => ?_
  have hk' := k'.isLt
  rw [ublk_apply m c ⟨t.val - 7 + kb.val, hs⟩ p k' (j 0) (BlockAlg.pos kb k')
      (by show (j 0).val = (t.val - 7 + kb.val) / 8 * 512 + p.val; rw [h0]; show t.val / 8 * 512 + p.val = _; omega)
      (by show kb.val * 512 + k'.val = (t.val - 7 + kb.val) % 8 * 512 + k'.val; omega),
    xblk_apply m c ⟨t.val - 7 + kb.val, hs⟩ k' q (BlockAlg.pos kb k')
      (by show kb.val * 512 + k'.val = (t.val - 7 + kb.val) % 8 * 512 + k'.val; omega)]

/-- What a point with k = 7 writes back is its block of the product. -/
theorem flushed_eq (c : Dev nD) (t : Fin cfg0.N) (hf : (cfg0.win 2).flush t = true) :
    (dats m 0 c).flushed 2 t = ((cfg0.win 2).blk t).view.read (Elt Ideal) (prod (Umat m c) (Xmat m c)) := by
  have h7 : t.val % 8 = 7 := (flush0_2 t).mp hf
  obtain ⟨-, -, -, -, e4, e5⟩ := idx_facts t
  show (cfg0.win 2).cut (grid0.coords t) ((dats m 0 c).after 2 t) = _
  rw [after0_2, out_eq m c t h7]
  funext y
  refine block_value m c t h7 y _ ?_ ?_
  · show win0_2.index t (0 : Fin 2) * 512 + 1 * (y 0).val = t.val / 8 * 512 + (y 0).val; rw [e4]; omega
  · show win0_2.index t (1 : Fin 2) * 2048 + 1 * (y 1).val = (y 1).val; rw [e5]; omega

/-- An index of the result is in point `t`'s block iff each coordinate is in the block's range on its axis. -/
theorem mem_blk (t : Fin cfg0.N) (i : S4096x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v1).slice (win0_2.rect t)).set ↔ _
  rw [View.set_slice_whole, Rect.mem_set_unit]
  exact Iff.rfl

/-- Row r of the result lies in the block written back at the point 8 (r / 512) + 7. -/
theorem cover (i : S4096x2048.Idx) : ∃ t : Fin cfg0.N, (cfg0.win 2).flush t = true ∧ i ∈ ((cfg0.win 2).blk t).view.set := by
  have hi0 : (i 0).val < 4096 := (i 0).isLt
  have hi1 : (i 1).val < 2048 := (i 1).isLt
  have hN : cfg0.N = 64 := N_0
  obtain ⟨t, ht⟩ : ∃ t : Fin cfg0.N, t.val = 8 * ((i 0).val / 512) + 7 := ⟨⟨8 * ((i 0).val / 512) + 7, by omega⟩, rfl⟩
  obtain ⟨-, -, -, -, e4, e5⟩ := idx_facts t
  refine ⟨t, (flush0_2 t).mpr (by omega), ?_⟩
  rw [mem_blk]
  intro a
  match a with
  | ⟨0, _⟩ => show win0_2.index t (0 : Fin 2) * 512 ≤ (i 0).val ∧ (i 0).val < win0_2.index t (0 : Fin 2) * 512 + 512; rw [e4]; omega
  | ⟨1, _⟩ => show win0_2.index t (1 : Fin 2) * 2048 ≤ (i 1).val ∧ (i 1).val < win0_2.index t (1 : Fin 2) * 2048 + 2048; rw [e5]; omega

/-- The result array after the region is the product of the matrix and the right-hand array as the region found them. -/
theorem final_o (c : Dev nD) : (dats m 0 c).arrAt 2 cfg0.N = prod (Umat m c) (Xmat m c) :=
  (dats m 0 c).arrAt_eq_of_cover 2 (prod (Umat m c) (Xmat m c)) (flushed_eq m c) cover

end Cert.KernelIdeal.KernelValue
end
-- ==== Proof.Halves.lean ====
/-
  The two halves of the kernel's product are the reference's two products.

  The kernel multiplies the matrix U by the two [4096, 1024] arrays laid side by side (columns 0 … 1023 from the first,
  columns 1024 … 2047 from the second) and then cuts the [4096, 2048] result back into its left and right halves. Entry
  (r, q) of the left half is the sum over k of U (r, k) times the side-by-side array's entry (k, q), which is the first
  array's entry (k, q): the reference's first product at (r, q). Entry (r, q) of the right half reads column 1024 + q,
  which is the second array's column q: the reference's second product. Both sides are the same sum, term by term.
-/
import proofs.«101000_j73813307949722_1_alg».proof.Proof.KernelValue
import proofs.«101000_j73813307949722_1_alg».proof.Proof.Gen.ReferenceIdeal.Read
import Idealize.ShloMosaic.Lib.Pipeline.Value
import Idealize.ShloMosaic.Lib.ValueIdx

noncomputable section

open Idealize.ShloMosaic Idealize.ShloMosaic.TcCoe Idealize.ShloMosaic.ValueIdx

namespace Cert.Halves

open Cert.KernelIdeal.KernelValue (prod)

/-- The reference reads its left operand at (row of the result, k) -/
theorem lidx0_eq (p : Fin 4096) (q : Fin 1024) (k : Fin 4096) :
    Cert.ReferenceIdeal.Read.lidx_main_v0 (ix2 p q) k = ix2 p k :=
  funext fun a => Fin.ext (by match a with | ⟨0, _⟩ => rfl | ⟨1, _⟩ => rfl)
/-- and its right operand at (k, column of the result); -/
theorem ridx0_eq (p : Fin 4096) (q : Fin 1024) (k : Fin 4096) :
    Cert.ReferenceIdeal.Read.ridx_main_v0 (ix2 p q) k = ix2 k q :=
  funext fun a => Fin.ext (by match a with | ⟨0, _⟩ => rfl | ⟨1, _⟩ => rfl)
/-- the same for its second product. -/
theorem lidx1_eq (p : Fin 4096) (q : Fin 1024) (k : Fin 4096) :
    Cert.ReferenceIdeal.Read.lidx_main_v1 (ix2 p q) k = ix2 p k :=
  funext fun a => Fin.ext (by match a with | ⟨0, _⟩ => rfl | ⟨1, _⟩ => rfl)
theorem ridx1_eq (p : Fin 4096) (q : Fin 1024) (k : Fin 4096) :
    Cert.ReferenceIdeal.Read.ridx_main_v1 (ix2 p q) k = ix2 k q :=
  funext fun a => Fin.ext (by match a with | ⟨0, _⟩ => rfl | ⟨1, _⟩ => rfl)

variable (U : Cert.KernelIdeal.S4096x4096.Idx → Elt Ideal .f32) (xr xi : Cert.KernelIdeal.S4096x1024.Idx → Elt Ideal .f32)

/-- The two arrays side by side. -/
abbrev sideBySide : Cert.KernelIdeal.S4096x2048.Idx → Elt Ideal .f32 :=
  concatenate Cert.KernelIdeal.S4096x2048 1 [⟨Cert.KernelIdeal.S4096x1024, xr⟩, ⟨Cert.KernelIdeal.S4096x1024, xi⟩]
    Cert.KernelIdeal.Gen.concatenates_S4096x1024_S4096x1024_S4096x2048_d1

/-- Columns 0 … 1023 of the product with the side-by-side array: the reference's first product. -/
theorem left_half :
    extractStridedSlice Cert.KernelIdeal.S4096x1024 ![0, 0] (prod U (sideBySide xr xi)) Cert.KernelIdeal.Gen.slices_S4096x2048_S4096x1024_0_0
      = Cert.ReferenceIdeal.Read.val_main_v0 (F := Ideal) xr U := by
  funext j
  obtain ⟨p, q, rfl⟩ : ∃ (p : Fin 4096) (q : Fin 1024), j = ix2 p q := ⟨j 0, j 1, eq_ix2 j⟩
  have hq := q.isLt
  rw [Cert.ReferenceIdeal.Read.val_main_v0_apply]
  refine (extractStridedSlice_apply ![0, 0] _ _ (ix2 p q) (ix2 p (⟨q.val, by omega⟩ : Fin 2048)) (fun a => by
    match a with
    | ⟨0, _⟩ => show p.val = 0 + p.val; omega
    | ⟨1, _⟩ => show q.val = 0 + q.val; omega)).trans ?_
  show ∑ k : Fin 4096, U (ix2 p k) * sideBySide xr xi (ix2 k (⟨q.val, by omega⟩ : Fin 2048)) = _
  refine Finset.sum_congr rfl fun k _ => ?_
  rw [lidx0_eq, ridx0_eq]
  refine congrArg (U (ix2 p k) * ·) ?_
  refine concatenate_pair_apply_left (1 : Fin 2) xr xi _ (ix2 k (⟨q.val, by omega⟩ : Fin 2048)) rfl (ix2 k q) (fun b => ?_)
  match b with
  | ⟨0, _⟩ => rfl
  | ⟨1, _⟩ => rfl

/-- Columns 1024 … 2047 of the product with the side-by-side array: the reference's second product. -/
theorem right_half :
    extractStridedSlice Cert.KernelIdeal.S4096x1024 ![0, 1024] (prod U (sideBySide xr xi)) Cert.KernelIdeal.Gen.slices_S4096x2048_S4096x1024_0_1024
      = Cert.ReferenceIdeal.Read.val_main_v1 (F := Ideal) xi U := by
  funext j
  obtain ⟨p, q, rfl⟩ : ∃ (p : Fin 4096) (q : Fin 1024), j = ix2 p q := ⟨j 0, j 1, eq_ix2 j⟩
  have hq := q.isLt
  rw [Cert.ReferenceIdeal.Read.val_main_v1_apply]
  refine (extractStridedSlice_apply ![0, 1024] _ _ (ix2 p q) (ix2 p (⟨1024 + q.val, by omega⟩ : Fin 2048)) (fun a => by
    match a with
    | ⟨0, _⟩ => show p.val = 0 + p.val; omega
    | ⟨1, _⟩ => show 1024 + q.val = 1024 + q.val; rfl)).trans ?_
  show ∑ k : Fin 4096, U (ix2 p k) * sideBySide xr xi (ix2 k (⟨1024 + q.val, by omega⟩ : Fin 2048)) = _
  refine Finset.sum_congr rfl fun k _ => ?_
  rw [lidx1_eq, ridx1_eq]
  refine congrArg (U (ix2 p k) * ·) ?_
  refine concatenate_pair_apply_right (1 : Fin 2) xr xi _ (ix2 k (⟨1024 + q.val, by omega⟩ : Fin 2048)) rfl rfl (ix2 k q) (fun b hb => ?_) ?_
  · match b with
    | ⟨0, _⟩ => rfl
    | ⟨1, _⟩ => exact absurd rfl hb
  · show q.val + 1024 = 1024 + q.val; omega

end Cert.Halves
end
-- ==== Proof.Tail.lean ====
/-
  The kernel's whole run, read as values.

  Before the region the host lays the two [4096, 1024] arguments side by side into one [4096, 2048] array, which is what
  the right-hand window reads; the matrix argument is untouched. After the region the host cuts the [4096, 2048] result
  into its left and right halves and stacks them as the two layers of the [2, 4096, 1024] result. So the result is the
  stack of the two halves of the product of the matrix with the side-by-side array, and the arguments end as they began.
-/
import proofs.«101000_j73813307949722_1_alg».proof.Proof.Halves
import Idealize.ShloMosaic.Lib.StableHlo.Run
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.KernelIdeal.KernelValue

/-- Two [4096, 1024] arrays stacked as the two layers of a [2, 4096, 1024] array. -/
def stack {F : FTy → Type} (a b : S4096x1024.Idx → Elt F .f32) : S2x4096x1024.Idx → Elt F .f32 :=
  concatenate S2x4096x1024 0
    [⟨S1x4096x1024, broadcastInDim S1x4096x1024 ![1, 2] bcast_S4096x1024_S1x4096x1024_1_2 a⟩,
     ⟨S1x4096x1024, broadcastInDim S1x4096x1024 ![1, 2] bcast_S4096x1024_S1x4096x1024_1_2 b⟩]
    concatenates_S1x4096x1024_S1x4096x1024_S2x4096x1024_d0

variable (m : (ℓ : Loc nD τ sig) → Buf (Elt Ideal) ℓ) (ρ : Dev nD → PrngReg)

/-- The right-hand array the region finds is the two arguments side by side. -/
theorem xcat_eq (c : Dev nD) : (V m c main_v0 : S4096x2048.Idx → Elt Ideal .f32)
    = Cert.Halves.sideBySide (m ((c : Thread nD τ).loc main_arg0)) (m ((c : Thread nD τ).loc main_arg1)) := by
  show StableHlo.after hostOps0 (fun b => m (c, b)) (Proc.devRef .tc main_v0) = _
  after_results

/-- The host lines after the region leave in the result the stack of the two halves of the region's output array. -/
theorem tail_eq (c : Dev nD) :
    Pipeline.afterTail₀ cfgs (dats m) 0 (V0 m) [hostOps1] c main_v6
      = stack (extractStridedSlice S4096x1024 ![0, 0] ((dats m 0 c).arrAt 2 cfg0.N) slices_S4096x2048_S4096x1024_0_0)
          (extractStridedSlice S4096x1024 ![0, 1024] ((dats m 0 c).arrAt 2 cfg0.N) slices_S4096x2048_S4096x1024_0_1024) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v1)
      = (dats m 0 c).arrAt 2 cfg0.N :=
    Pipeline.withArrays_arr spec0 launch0.win.arr_inj c _ _ 2
  rw [hw]
  rfl

/-- The region's output array is the product of the matrix argument with the two other arguments side by side. -/
theorem out_array (c : Dev nD) : (dats m 0 c).arrAt 2 cfg0.N
    = prod (m ((c : Thread nD τ).loc main_arg2))
        (Cert.Halves.sideBySide (m ((c : Thread nD τ).loc main_arg0)) (m ((c : Thread nD τ).loc main_arg1))) := by
  rw [final_o m c]
  show prod (V m c main_arg2) (V m c main_v0) = _
  rw [V_main_arg2 m c, xcat_eq m c]

/-- What the kernel's result holds: the stack of the left and right halves of that product. -/
def result (c : Dev nD) : Buf (Elt Ideal) ((c.tc : Thread nD τ).loc main_v6) :=
  stack
    (extractStridedSlice S4096x1024 ![0, 0]
      (prod (m ((c : Thread nD τ).loc main_arg2)) (Cert.Halves.sideBySide (m ((c : Thread nD τ).loc main_arg0)) (m ((c : Thread nD τ).loc main_arg1))))
      slices_S4096x2048_S4096x1024_0_0)
    (extractStridedSlice S4096x1024 ![0, 1024]
      (prod (m ((c : Thread nD τ).loc main_arg2)) (Cert.Halves.sideBySide (m ((c : Thread nD τ).loc main_arg0)) (m ((c : Thread nD τ).loc main_arg1))))
      slices_S4096x2048_S4096x1024_0_1024)

/-- Every weakly fair execution of the kernel's @main terminates with the result at `result` and the arguments unchanged. -/
theorem run : θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v6 (Pipeline.mem_restRefs_of main_v6 (by decide) (by decide))).trans
          ((tail_eq m c).trans (by rw [out_array m c]; rfl)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).1 0).trans (((dats m 0 c).arrAt_in 0 rfl _).trans ((A_eq m c 0).trans (V_main_arg2 m c)))⟩)
    (run_main m ρ)

end Cert.KernelIdeal.Tail
end
-- ==== Proof.lean ====
/-
  The five claims for a matrix product computed block by block.

  The kernel multiplies a [4096, 4096] matrix U by two [4096, 1024] arrays at once: it lays them side by side, walks an
  8 x 8 grid of [512, 512] blocks of U, and for each block of rows accumulates over the eight blocks of the contraction
  axis "the block of U times the matching 512 rows of the side-by-side array"; it then cuts the result into its two
  halves and stacks them. The reference computes the two products U · x directly and stacks them.

  Over the extended reals a change of float format is the identity and every product is an exact sum, so entry (r, q) of
  either half is, on both sides, the sum over all 4096 positions k of U (r, k) times x (k, q): the kernel adds the same
  terms grouped into eight blocks of 512, starting from zero, and regrouping a sum only uses that addition is commutative
  and associative and that 0 + x = x. Nothing needs to be finite, so the precondition is never opened.

  The three frame claims are the generated frames (the reference's is its run with the result dropped). The idealized
  kernel is the kernel's own text read over the extended reals, so the preservation claim is `True`.
-/
import proofs.«101000_j73813307949722_1_alg».proof.Defs
import proofs.«101000_j73813307949722_1_alg».proof.Proof.Gen.Kernel
import proofs.«101000_j73813307949722_1_alg».proof.Proof.Gen.Kernel.Skeleton
import proofs.«101000_j73813307949722_1_alg».proof.Proof.Gen.Kernel.Launch
import proofs.«101000_j73813307949722_1_alg».proof.Proof.Gen.Kernel.Points
import proofs.«101000_j73813307949722_1_alg».proof.Proof.Gen.Kernel.Frame
import proofs.«101000_j73813307949722_1_alg».proof.Proof.Gen.KernelIdeal
import proofs.«101000_j73813307949722_1_alg».proof.Proof.Gen.KernelIdeal.Skeleton
import proofs.«101000_j73813307949722_1_alg».proof.Proof.Gen.KernelIdeal.Launch
import proofs.«101000_j73813307949722_1_alg».proof.Proof.Gen.KernelIdeal.Points
import proofs.«101000_j73813307949722_1_alg».proof.Proof.Gen.KernelIdeal.Frame
import proofs.«101000_j73813307949722_1_alg».proof.Proof.Gen.ReferenceIdeal
import proofs.«101000_j73813307949722_1_alg».proof.Proof.Gen.ReferenceIdeal.Run
import proofs.«101000_j73813307949722_1_alg».proof.Proof.Gen.ReferenceIdeal.Read
import proofs.«101000_j73813307949722_1_alg».proof.Proof.Gen.Pre_finite_inputs
import proofs.«101000_j73813307949722_1_alg».proof.Proof.Tail
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result is the stack of its two products; the kernel's is the stack of the two halves of the product
    with the side-by-side array; half by half they are the same sums. -/
theorem algebraic : Cert.algebraic_KernelIdeal_ReferenceIdeal := by
  intro m ρ m' ρ' _ hagree
  refine ⟨fun c => Cert.KernelIdeal.Tail.result m c, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  show _ = Cert.KernelIdeal.Tail.result m c
  unfold Cert.KernelIdeal.Tail.result
  rw [Cert.Halves.left_half, Cert.Halves.right_half]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
